-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S15279x8 : Shape := ⟨2, ![15279, 8]⟩
abbrev S488928 : Shape := ⟨1, ![488928]⟩
abbrev S10001x128 : Shape := ⟨2, ![10001, 128]⟩
abbrev S1024x512 : Shape := ⟨2, ![1024, 512]⟩
abbrev S512 : Shape := ⟨1, ![512]⟩
abbrev S512x16 : Shape := ⟨2, ![512, 16]⟩
abbrev S16 : Shape := ⟨1, ![16]⟩
abbrev S_ : Shape := ⟨0, ![]⟩

class Facts : Prop where
  bcast_S_S488928 : S_.BroadcastsInDim S488928 (![] : Fin 0 → Fin S488928.rank)
  reducesTo_S488928_S_d0 : S488928.ReducesTo [0] S_
  h_S_ : 0 < S_.numel
  bcast_S_S10001x128 : S_.BroadcastsInDim S10001x128 (![] : Fin 0 → Fin S10001x128.rank)
  reducesTo_S10001x128_S_d0_1 : S10001x128.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg7 : FVec F S512x16 .f32) (main_arg8 : FVec F S16 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x16 .f32 := Host.absf main_arg7
  let main_cst_6 : FVec F S_ .f32 := constant S_ .f32 0x7F800000#32
  let main_v20 : FVec F S512x16 .f32 := broadcastInDim S512x16 ![] bcast_S_S512x16 main_cst_6
  let main_v21 : IVec S512x16 1 := cmpf .olt main_v19 main_v20
  let main_c_7 : IVec S_ 1 := constantI S_ 1 1#1
  let main_v22 : IVec S_ 1 := (fun x v => Host.reduce IntOp.andi x v reducesTo_S512x16_S_d0_1 h_S_) main_v21 main_c_7
  let main_v23 : IVec S_ 1 := andi main_v18 main_v22
  let main_v24 : FVec F S16 .f32 := Host.absf main_arg8
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : IVec S15279x8 32) (main_arg1 : IVec S488928 32) (main_arg2 : IVec S488928 32) (main_arg3 : FVec F S488928 .f32) (main_arg4 : FVec F S10001x128 .f32) (main_arg5 : FVec F S1024x512 .f32) (main_arg6 : FVec F S512 .f32) (main_arg7 : FVec F S512x16 .f32) (main_arg8 : FVec F S16 .f32) : IVec S_ 1 :=
  let main_v0 : FVec F S488928 .f32 := Host.absf main_arg3
  let main_cst : FVec F S_ .f32 := constant S_ .f32 0x7F800000#32
  let main_v1 : FVec F S488928 .f32 := broadcastInDim S488928 ![] bcast_S_S488928 main_cst
  let main_v2 : IVec S488928 1 := cmpf .olt main_v0 main_v1
  let main_c : IVec S_ 1 := constantI S_ 1 1#1
  let main_v3 : IVec S_ 1 := (fun x v => Host.reduce IntOp.andi x v reducesTo_S488928_S_d0 h_S_) main_v2 main_c
  let main_v4 : FVec F S10001x128 .f32 := Host.absf main_arg4
  let main_cst_0 : FVec F S_ .f32 := constant S_ .f32 0x7F800000#32
  let main_v5 : FVec F S10001x128 .f32 := broadcastInDim S10001x128 ![] bcast_S_S10001x128 main_cst_0
  let main_v6 : IVec S10001x128 1 := cmpf .olt main_v4 main_v5
  let main_c_1 : IVec S_ 1 := constantI S_ 1 1#1
  let main_v7 : IVec S_ 1 := (fun x v => Host.reduce IntOp.andi x v reducesTo_S10001x128_S_d0_1 h_S_) main_v6 main_c_1
  let main_v8 : IVec S_ 1 := andi main_v3 main_v7
  let main_v9 : FVec F S1024x512 .f32 := Host.absf main_arg5
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512 .f32 := Host.absf main_arg6
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg7 main_arg8 main_v13 main_v16
-- ==== Kernel.lean ====
abbrev S15279x8 : Shape := ⟨2, ![15279, 8]⟩
abbrev S488928 : Shape := ⟨1, ![488928]⟩
abbrev S10001x128 : Shape := ⟨2, ![10001, 128]⟩
abbrev S1024x512 : Shape := ⟨2, ![1024, 512]⟩
abbrev S512 : Shape := ⟨1, ![512]⟩
abbrev S512x16 : Shape := ⟨2, ![512, 16]⟩
abbrev S16 : Shape := ⟨1, ![16]⟩
abbrev S_ : Shape := ⟨0, ![]⟩
abbrev S15279x8x1 : Shape := ⟨3, ![15279, 8, 1]⟩
abbrev S15279x8x128 : Shape := ⟨3, ![15279, 8, 128]⟩
abbrev S15279x1024 : Shape := ⟨2, ![15279, 1024]⟩
abbrev S15360x1024 : Shape := ⟨2, ![15360, 1024]⟩
abbrev S15360x512 : Shape := ⟨2, ![15360, 512]⟩
abbrev S1024x1024 : Shape := ⟨2, ![1024, 1024]⟩
abbrev S15279x512 : Shape := ⟨2, ![15279, 512]⟩
abbrev S488928x1 : Shape := ⟨2, ![488928, 1]⟩
abbrev S488928x512 : Shape := ⟨2, ![488928, 512]⟩
abbrev S1x512 : Shape := ⟨2, ![1, 512]⟩
abbrev S15360x16 : Shape := ⟨2, ![15360, 16]⟩
abbrev S1024x16 : Shape := ⟨2, ![1024, 16]⟩
abbrev S15279x16 : Shape := ⟨2, ![15279, 16]⟩
abbrev S488928x16 : Shape := ⟨2, ![488928, 16]⟩
abbrev S1x16 : Shape := ⟨2, ![1, 16]⟩

abbrev nBuf : Space → Nat
  | .hbm => 77
  | .vmem => 10
  | .smem => 0
  | _ => 0

abbrev bufTy : (tb : Table) → Fin (tcTables nBuf tb) → BufTy
  | .hbm, ⟨0, _⟩ => ⟨S15279x8, .i32⟩
  | .hbm, ⟨1, _⟩ => ⟨S488928, .i32⟩
  | .hbm, ⟨2, _⟩ => ⟨S488928, .i32⟩
  | .hbm, ⟨3, _⟩ => ⟨S488928, .f32⟩
  | .hbm, ⟨4, _⟩ => ⟨S10001x128, .f32⟩
  | .hbm, ⟨5, _⟩ => ⟨S1024x512, .f32⟩
  | .hbm, ⟨6, _⟩ => ⟨S512, .f32⟩
  | .hbm, ⟨7, _⟩ => ⟨S512x16, .f32⟩
  | .hbm, ⟨8, _⟩ => ⟨S16, .f32⟩
  | .hbm, ⟨9, _⟩ => ⟨S_, .i32⟩
  | .hbm, ⟨10, _⟩ => ⟨S15279x8, .i32⟩
  | .hbm, ⟨11, _⟩ => ⟨S15279x8, .i1⟩
  | .hbm, ⟨12, _⟩ => ⟨S_, .i32⟩
  | .hbm, ⟨13, _⟩ => ⟨S15279x8, .i32⟩
  | .hbm, ⟨14, _⟩ => ⟨S15279x8, .i32⟩
  | .hbm, ⟨15, _⟩ => ⟨S15279x8, .i32⟩
  | .hbm, ⟨16, _⟩ => ⟨S15279x8x1, .i32⟩
  | .hbm, ⟨17, _⟩ => ⟨S15279x8x128, .f32⟩
  | .hbm, ⟨18, _⟩ => ⟨S_, .f32⟩
  | .hbm, ⟨19, _⟩ => ⟨S15279x8x128, .f32⟩
  | .hbm, ⟨20, _⟩ => ⟨S15279x8x128, .f32⟩
  | .hbm, ⟨21, _⟩ => ⟨S15279x1024, .f32⟩
  | .hbm, ⟨22, _⟩ => ⟨S15279x1024, .bf16⟩
  | .hbm, ⟨23, _⟩ => ⟨S_, .i32⟩
  | .hbm, ⟨24, _⟩ => ⟨S_, .bf16⟩
  | .hbm, ⟨25, _⟩ => ⟨S15360x1024, .bf16⟩
  | .hbm, ⟨26, _⟩ => ⟨S1024x512, .bf16⟩
  | .hbm, ⟨27, _⟩ => ⟨S15360x512, .f32⟩
  | .hbm, ⟨28, _⟩ => ⟨S15279x512, .f32⟩
  | .hbm, ⟨29, _⟩ => ⟨S_, .i32⟩
  | .hbm, ⟨30, _⟩ => ⟨S488928, .i32⟩
  | .hbm, ⟨31, _⟩ => ⟨S488928, .i1⟩
  | .hbm, ⟨32, _⟩ => ⟨S_, .i32⟩
  | .hbm, ⟨33, _⟩ => ⟨S488928, .i32⟩
  | .hbm, ⟨34, _⟩ => ⟨S488928, .i32⟩
  | .hbm, ⟨35, _⟩ => ⟨S488928, .i32⟩
  | .hbm, ⟨36, _⟩ => ⟨S488928x1, .i32⟩
  | .hbm, ⟨37, _⟩ => ⟨S488928x512, .f32⟩
  | .hbm, ⟨38, _⟩ => ⟨S488928x1, .f32⟩
  | .hbm, ⟨39, _⟩ => ⟨S488928x512, .f32⟩
  | .hbm, ⟨40, _⟩ => ⟨S488928x512, .f32⟩
  | .hbm, ⟨41, _⟩ => ⟨S_, .f32⟩
  | .hbm, ⟨42, _⟩ => ⟨S15279x512, .f32⟩
  | .hbm, ⟨43, _⟩ => ⟨S488928x1, .i32⟩
  | .hbm, ⟨44, _⟩ => ⟨S15279x512, .f32⟩
  | .hbm, ⟨45, _⟩ => ⟨S1x512, .f32⟩
  | .hbm, ⟨46, _⟩ => ⟨S15279x512, .f32⟩
  | .hbm, ⟨47, _⟩ => ⟨S15279x512, .f32⟩
  | .hbm, ⟨48, _⟩ => ⟨S_, .f32⟩
  | .hbm, ⟨49, _⟩ => ⟨S15279x512, .f32⟩
  | .hbm, ⟨50, _⟩ => ⟨S15279x512, .f32⟩
  | .hbm, ⟨51, _⟩ => ⟨S15279x512, .bf16⟩
  | .hbm, ⟨52, _⟩ => ⟨S_, .i32⟩
  | .hbm, ⟨53, _⟩ => ⟨S_, .bf16⟩
  | .hbm, ⟨54, _⟩ => ⟨S15360x512, .bf16⟩
  | .hbm, ⟨55, _⟩ => ⟨S512x16, .bf16⟩
  | .hbm, ⟨56, _⟩ => ⟨S15360x16, .f32⟩
  | .hbm, ⟨57, _⟩ => ⟨S15279x16, .f32⟩
  | .hbm, ⟨58, _⟩ => ⟨S_, .i32⟩
  | .hbm, ⟨59, _⟩ => ⟨S488928, .i32⟩
  | .hbm, ⟨60, _⟩ => ⟨S488928, .i1⟩
  | .hbm, ⟨61, _⟩ => ⟨S_, .i32⟩
  | .hbm, ⟨62, _⟩ => ⟨S488928, .i32⟩
  | .hbm, ⟨63, _⟩ => ⟨S488928, .i32⟩
  | .hbm, ⟨64, _⟩ => ⟨S488928, .i32⟩
  | .hbm, ⟨65, _⟩ => ⟨S488928x1, .i32⟩
  | .hbm, ⟨66, _⟩ => ⟨S488928x16, .f32⟩
  | .hbm, ⟨67, _⟩ => ⟨S488928x1, .f32⟩
  | .hbm, ⟨68, _⟩ => ⟨S488928x16, .f32⟩
  | .hbm, ⟨69, _⟩ => ⟨S488928x16, .f32⟩
  | .hbm, ⟨70, _⟩ => ⟨S_, .f32⟩
  | .hbm, ⟨71, _⟩ => ⟨S15279x16, .f32⟩
  | .hbm, ⟨72, _⟩ => ⟨S488928x1, .i32⟩
  | .hbm, ⟨73, _⟩ => ⟨S15279x16, .f32⟩
  | .hbm, ⟨74, _⟩ => ⟨S1x16, .f32⟩
  | .hbm, ⟨75, _⟩ => ⟨S15279x16, .f32⟩
  | .hbm, ⟨76, _⟩ => ⟨S15279x16, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .f32⟩
  | .local _ .vmem, ⟨4, _⟩ => ⟨S1024x512, .f32⟩
  | .local _ .vmem, ⟨5, _⟩ => ⟨S1024x512, .bf16⟩
  | .local _ .vmem, ⟨6, _⟩ => ⟨S1024x512, .bf16⟩
  | .local _ .vmem, ⟨7, _⟩ => ⟨S512x16, .bf16⟩
  | .local _ .vmem, ⟨8, _⟩ => ⟨S1024x16, .f32⟩
  | .local _ .vmem, ⟨9, _⟩ => ⟨S1024x16, .f32⟩
  | _, _ => ⟨S15279x8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_call0_cst : Ref sig .tc := ⟨.hbm, 18, rfl⟩
abbrev main_call0_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_call1_v0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call2_cst : Ref sig .tc := ⟨.hbm, 48, rfl⟩
abbrev main_call2_v0 : Ref sig .tc := ⟨.hbm, 49, rfl⟩
abbrev main_v30 : Ref sig .tc := ⟨.hbm, 50, rfl⟩
abbrev main_v31 : Ref sig .tc := ⟨.hbm, 51, rfl⟩
abbrev main_c_4 : Ref sig .tc := ⟨.hbm, 52, rfl⟩
abbrev main_call3_v0 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_5 : Ref sig .tc := ⟨.hbm, 58, rfl⟩
abbrev main_v36 : Ref sig .tc := ⟨.hbm, 59, rfl⟩
abbrev main_v37 : Ref sig .tc := ⟨.hbm, 60, rfl⟩
abbrev main_c_6 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_7 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![15], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x16 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S15279x8 : S_.BroadcastsInDim S15279x8 (![] : Fin 0 → Fin S15279x8.rank)
  bcast_S15279x8_S15279x8x1_0_1 : S15279x8.BroadcastsInDim S15279x8x1 (![0, 1] : Fin 2 → Fin S15279x8x1.rank)
  bcast_S_S15279x8x128 : S_.BroadcastsInDim S15279x8x128 (![] : Fin 0 → Fin S15279x8x128.rank)
  shapeCasts_S15279x8x128_S15279x1024 : S15279x8x128.ShapeCasts S15279x1024
  bitsLt_bf16_f32 : FTy.bits .bf16 < FTy.bits .f32
  pads_S15279x1024_S15360x1024_0810_000 : S15279x1024.Pads (![0, 0] : Fin 2 → Nat) ![81, 0] ![0, 0] S15360x1024
  h_S_ : 0 < S_.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  slices_S15360x512_S15279x512_0_0 : S15360x512.Slices ![0, 0] S15279x512
  bcast_S_S488928 : S_.BroadcastsInDim S488928 (![] : Fin 0 → Fin S488928.rank)
  bcast_S488928_S488928x1_0 : S488928.BroadcastsInDim S488928x1 (![0] : Fin 1 → Fin S488928x1.rank)
  bcast_S488928x1_S488928x512_0_1 : S488928x1.BroadcastsInDim S488928x512 (![0, 1] : Fin 2 → Fin S488928x512.rank)
  bcast_S_S15279x512 : S_.BroadcastsInDim S15279x512 (![] : Fin 0 → Fin S15279x512.rank)
  bcast_S512_S1x512_1 : S512.BroadcastsInDim S1x512 (![1] : Fin 1 → Fin S1x512.rank)
  bcast_S1x512_S15279x512_0_1 : S1x512.BroadcastsInDim S15279x512 (![0, 1] : Fin 2 → Fin S15279x512.rank)
  pads_S15279x512_S15360x512_0810_000 : S15279x512.Pads (![0, 0] : Fin 2 → Nat) ![81, 0] ![0, 0] S15360x512
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S1024x16_S1024x16_0_0 : ∀ a, (![0, 0] : Fin 2 → Nat) a + S1024x16.size a ≤ S1024x16.size a
  h_S1024x16 : 0 < S1024x16.numel
  slices_S15360x16_S15279x16_0_0 : S15360x16.Slices ![0, 0] S15279x16
  bcast_S488928x1_S488928x16_0_1 : S488928x1.BroadcastsInDim S488928x16 (![0, 1] : Fin 2 → Fin S488928x16.rank)
  bcast_S_S15279x16 : S_.BroadcastsInDim S15279x16 (![] : Fin 0 → Fin S15279x16.rank)
  bcast_S16_S1x16_1 : S16.BroadcastsInDim S1x16 (![1] : Fin 1 → Fin S1x16.rank)
  bcast_S1x16_S15279x16_0_1 : S1x16.BroadcastsInDim S15279x16 (![0, 1] : Fin 2 → Fin S15279x16.rank)
  gather_S10001x128_S15279x8x1_S15279x8x128_2_0_n_n_0_2_1128_wf : GatherDims.WF S10001x128 S15279x8x1 S15279x8x128 [2] [0] [] [0] [] 2 ![1, 128]
  dot_S1024x1024_S1024x512_S1024x512_1_0_0_1_n_n_wf : DotDims.WF S1024x1024 S1024x512 S1024x512 [1] [0] [0] [1] [] []
  gather_S15279x512_S488928x1_S488928x512_1_0_n_n_0_1_1512_wf : GatherDims.WF S15279x512 S488928x1 S488928x512 [1] [0] [] [0] [] 1 ![1, 512]
  scatter_S15279x512_S488928x1_S488928x512_1_0_0_1_wf : ScatterDims.WF S15279x512 S488928x1 S488928x512 [1] [0] [0] 1
  dot_S1024x512_S512x16_S1024x16_1_0_0_1_n_n_wf : DotDims.WF S1024x512 S512x16 S1024x16 [1] [0] [0] [1] [] []
  gather_S15279x16_S488928x1_S488928x16_1_0_n_n_0_1_116_wf : GatherDims.WF S15279x16 S488928x1 S488928x16 [1] [0] [] [0] [] 1 ![1, 16]
  scatter_S15279x16_S488928x1_S488928x16_1_0_0_1_wf : ScatterDims.WF S15279x16 S488928x1 S488928x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S15360x1024.size a
  hwx0_0 : ∀ i : grid0.Coords, EltTy.bits .bf16 = 32 ∨ (Rect.block (s := S15360x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S15360x512.size a
  hwx0_2 : ∀ i : grid0.Coords, EltTy.bits .f32 = 32 ∨ (Rect.block (s := S15360x512) S1024x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S15360x512.size a
  hwx1_0 : ∀ i : grid1.Coords, EltTy.bits .bf16 = 32 ∨ (Rect.block (s := S15360x512) S1024x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x16.size a ≤ S512x16.size a
  hwx1_1 : ∀ i : grid1.Coords, EltTy.bits .bf16 = 32 ∨ (Rect.block (s := S512x16) S512x16.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x16.size a ≤ S15360x16.size a
  hwx1_2 : ∀ i : grid1.Coords, EltTy.bits .f32 = 32 ∨ (Rect.block (s := S15360x16) S1024x16.size (cc1_transform_2 i) (hinb1_2 i)).WholeWords (EltTy.packing .f32)

variable [Facts₀]

def gather_S10001x128_S15279x8x1_S15279x8x128_2_0_n_n_0_2_1128 : GatherDims S10001x128 S15279x8x1 S15279x8x128 where
  offsetDims := [2]
  collapsedSliceDims := [0]
  operandBatchingDims := []
  startIndicesBatchingDims := []
  startIndexMap := [0]
  indexVectorDim := 2
  sliceSizes := ![1, 128]
  wf := gather_S10001x128_S15279x8x1_S15279x8x128_2_0_n_n_0_2_1128_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def gather_S15279x512_S488928x1_S488928x512_1_0_n_n_0_1_1512 : GatherDims S15279x512 S488928x1 S488928x512 where
  offsetDims := [1]
  collapsedSliceDims := [0]
  operandBatchingDims := []
  startIndicesBatchingDims := []
  startIndexMap := [0]
  indexVectorDim := 1
  sliceSizes := ![1, 512]
  wf := gather_S15279x512_S488928x1_S488928x512_1_0_n_n_0_1_1512_wf
def scatter_S15279x512_S488928x1_S488928x512_1_0_0_1 : ScatterDims S15279x512 S488928x1 S488928x512 where
  updateWindowDims := [1]
  insertedWindowDims := [0]
  scatterDimsToOperandDims := [0]
  indexVectorDim := 1
  wf := scatter_S15279x512_S488928x1_S488928x512_1_0_0_1_wf
def dot_S1024x512_S512x16_S1024x16_1_0_0_1_n_n : DotDims S1024x512 S512x16 S1024x16 where
  lhsContracting := [1]
  rhsContracting := [0]
  lhsNonContracting := [0]
  rhsNonContracting := [1]
  lhsBatch := []
  rhsBatch := []
  wf := dot_S1024x512_S512x16_S1024x16_1_0_0_1_n_n_wf
def gather_S15279x16_S488928x1_S488928x16_1_0_n_n_0_1_116 : GatherDims S15279x16 S488928x1 S488928x16 where
  offsetDims := [1]
  collapsedSliceDims := [0]
  operandBatchingDims := []
  startIndicesBatchingDims := []
  startIndexMap := [0]
  indexVectorDim := 1
  sliceSizes := ![1, 16]
  wf := gather_S15279x16_S488928x1_S488928x16_1_0_n_n_0_1_116_wf
def scatter_S15279x16_S488928x1_S488928x16_1_0_0_1 : ScatterDims S15279x16 S488928x1 S488928x16 where
  updateWindowDims := [1]
  insertedWindowDims := [0]
  scatterDimsToOperandDims := [0]
  indexVectorDim := 1
  wf := scatter_S15279x16_S488928x1_S488928x16_1_0_0_1_wf

abbrev win0_0 : Pipeline.Window sig grid0 :=
  Pipeline.Window.ofSpec (Memref.whole main_v10) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v32) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S512x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1024x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S15279x8 : Shape := ⟨2, ![15279, 8]⟩
abbrev S488928 : Shape := ⟨1, ![488928]⟩
abbrev S10001x128 : Shape := ⟨2, ![10001, 128]⟩
abbrev S1024x512 : Shape := ⟨2, ![1024, 512]⟩
abbrev S512 : Shape := ⟨1, ![512]⟩
abbrev S512x16 : Shape := ⟨2, ![512, 16]⟩
abbrev S16 : Shape := ⟨1, ![16]⟩
abbrev S_ : Shape := ⟨0, ![]⟩
abbrev S15279x8x1 : Shape := ⟨3, ![15279, 8, 1]⟩
abbrev S15279x8x128 : Shape := ⟨3, ![15279, 8, 128]⟩
abbrev S15279x1024 : Shape := ⟨2, ![15279, 1024]⟩
abbrev S15279x512 : Shape := ⟨2, ![15279, 512]⟩
abbrev S488928x1 : Shape := ⟨2, ![488928, 1]⟩
abbrev S488928x512 : Shape := ⟨2, ![488928, 512]⟩
abbrev S1x512 : Shape := ⟨2, ![1, 512]⟩
abbrev S15279x16 : Shape := ⟨2, ![15279, 16]⟩
abbrev S488928x16 : Shape := ⟨2, ![488928, 16]⟩
abbrev S1x16 : Shape := ⟨2, ![1, 16]⟩

abbrev nBuf : Space → Nat
  | .hbm => 65
  | .vmem => 0
  | .smem => 0
  | _ => 0

abbrev bufTy : (tb : Table) → Fin (tcTables nBuf tb) → BufTy
  | .hbm, ⟨0, _⟩ => ⟨S15279x8, .i32⟩
  | .hbm, ⟨1, _⟩ => ⟨S488928, .i32⟩
  | .hbm, ⟨2, _⟩ => ⟨S488928, .i32⟩
  | .hbm, ⟨3, _⟩ => ⟨S488928, .f32⟩
  | .hbm, ⟨4, _⟩ => ⟨S10001x128, .f32⟩
  | .hbm, ⟨5, _⟩ => ⟨S1024x512, .f32⟩
  | .hbm, ⟨6, _⟩ => ⟨S512, .f32⟩
  | .hbm, ⟨7, _⟩ => ⟨S512x16, .f32⟩
  | .hbm, ⟨8, _⟩ => ⟨S16, .f32⟩
  | .hbm, ⟨9, _⟩ => ⟨S_, .i32⟩
  | .hbm, ⟨10, _⟩ => ⟨S15279x8, .i32⟩
  | .hbm, ⟨11, _⟩ => ⟨S15279x8, .i1⟩
  | .hbm, ⟨12, _⟩ => ⟨S_, .i32⟩
  | .hbm, ⟨13, _⟩ => ⟨S15279x8, .i32⟩
  | .hbm, ⟨14, _⟩ => ⟨S15279x8, .i32⟩
  | .hbm, ⟨15, _⟩ => ⟨S15279x8, .i32⟩
  | .hbm, ⟨16, _⟩ => ⟨S15279x8x1, .i32⟩
  | .hbm, ⟨17, _⟩ => ⟨S15279x8x128, .f32⟩
  | .hbm, ⟨18, _⟩ => ⟨S_, .f32⟩
  | .hbm, ⟨19, _⟩ => ⟨S15279x8x128, .f32⟩
  | .hbm, ⟨20, _⟩ => ⟨S15279x8x128, .f32⟩
  | .hbm, ⟨21, _⟩ => ⟨S15279x1024, .f32⟩
  | .hbm, ⟨22, _⟩ => ⟨S15279x512, .f32⟩
  | .hbm, ⟨23, _⟩ => ⟨S_, .i32⟩
  | .hbm, ⟨24, _⟩ => ⟨S488928, .i32⟩
  | .hbm, ⟨25, _⟩ => ⟨S488928, .i1⟩
  | .hbm, ⟨26, _⟩ => ⟨S_, .i32⟩
  | .hbm, ⟨27, _⟩ => ⟨S488928, .i32⟩
  | .hbm, ⟨28, _⟩ => ⟨S488928, .i32⟩
  | .hbm, ⟨29, _⟩ => ⟨S488928, .i32⟩
  | .hbm, ⟨30, _⟩ => ⟨S488928x1, .i32⟩
  | .hbm, ⟨31, _⟩ => ⟨S488928x512, .f32⟩
  | .hbm, ⟨32, _⟩ => ⟨S488928x1, .f32⟩
  | .hbm, ⟨33, _⟩ => ⟨S488928x512, .f32⟩
  | .hbm, ⟨34, _⟩ => ⟨S488928x512, .f32⟩
  | .hbm, ⟨35, _⟩ => ⟨S_, .f32⟩
  | .hbm, ⟨36, _⟩ => ⟨S15279x512, .f32⟩
  | .hbm, ⟨37, _⟩ => ⟨S488928x1, .i32⟩
  | .hbm, ⟨38, _⟩ => ⟨S15279x512, .f32⟩
  | .hbm, ⟨39, _⟩ => ⟨S1x512, .f32⟩
  | .hbm, ⟨40, _⟩ => ⟨S15279x512, .f32⟩
  | .hbm, ⟨41, _⟩ => ⟨S15279x512, .f32⟩
  | .hbm, ⟨42, _⟩ => ⟨S_, .f32⟩
  | .hbm, ⟨43, _⟩ => ⟨S15279x512, .f32⟩
  | .hbm, ⟨44, _⟩ => ⟨S15279x512, .f32⟩
  | .hbm, ⟨45, _⟩ => ⟨S15279x16, .f32⟩
  | .hbm, ⟨46, _⟩ => ⟨S_, .i32⟩
  | .hbm, ⟨47, _⟩ => ⟨S488928, .i32⟩
  | .hbm, ⟨48, _⟩ => ⟨S488928, .i1⟩
  | .hbm, ⟨49, _⟩ => ⟨S_, .i32⟩
  | .hbm, ⟨50, _⟩ => ⟨S488928, .i32⟩
  | .hbm, ⟨51, _⟩ => ⟨S488928, .i32⟩
  | .hbm, ⟨52, _⟩ => ⟨S488928, .i32⟩
  | .hbm, ⟨53, _⟩ => ⟨S488928x1, .i32⟩
  | .hbm, ⟨54, _⟩ => ⟨S488928x16, .f32⟩
  | .hbm, ⟨55, _⟩ => ⟨S488928x1, .f32⟩
  | .hbm, ⟨56, _⟩ => ⟨S488928x16, .f32⟩
  | .hbm, ⟨57, _⟩ => ⟨S488928x16, .f32⟩
  | .hbm, ⟨58, _⟩ => ⟨S_, .f32⟩
  | .hbm, ⟨59, _⟩ => ⟨S15279x16, .f32⟩
  | .hbm, ⟨60, _⟩ => ⟨S488928x1, .i32⟩
  | .hbm, ⟨61, _⟩ => ⟨S15279x16, .f32⟩
  | .hbm, ⟨62, _⟩ => ⟨S1x16, .f32⟩
  | .hbm, ⟨63, _⟩ => ⟨S15279x16, .f32⟩
  | .hbm, ⟨64, _⟩ => ⟨S15279x16, .f32⟩
  | _, _ => ⟨S15279x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_call0_cst : Ref sig .tc := ⟨.hbm, 18, rfl⟩
abbrev main_call0_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_v10 : Ref sig .tc := ⟨.hbm, 24, rfl⟩
abbrev main_v11 : Ref sig .tc := ⟨.hbm, 25, rfl⟩
abbrev main_c_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call1_cst : Ref sig .tc := ⟨.hbm, 42, rfl⟩
abbrev main_call1_v0 : Ref sig .tc := ⟨.hbm, 43, rfl⟩
abbrev main_v26 : Ref sig .tc := ⟨.hbm, 44, rfl⟩
abbrev main_v27 : Ref sig .tc := ⟨.hbm, 45, rfl⟩
abbrev main_c_3 : Ref sig .tc := ⟨.hbm, 46, rfl⟩
abbrev main_v28 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]

class Facts₀ : Prop where
  bcast_S_S15279x8 : S_.BroadcastsInDim S15279x8 (![] : Fin 0 → Fin S15279x8.rank)
  bcast_S15279x8_S15279x8x1_0_1 : S15279x8.BroadcastsInDim S15279x8x1 (![0, 1] : Fin 2 → Fin S15279x8x1.rank)
  bcast_S_S15279x8x128 : S_.BroadcastsInDim S15279x8x128 (![] : Fin 0 → Fin S15279x8x128.rank)
  shapeCasts_S15279x8x128_S15279x1024 : S15279x8x128.ShapeCasts S15279x1024
  bcast_S_S488928 : S_.BroadcastsInDim S488928 (![] : Fin 0 → Fin S488928.rank)
  bcast_S488928_S488928x1_0 : S488928.BroadcastsInDim S488928x1 (![0] : Fin 1 → Fin S488928x1.rank)
  bcast_S488928x1_S488928x512_0_1 : S488928x1.BroadcastsInDim S488928x512 (![0, 1] : Fin 2 → Fin S488928x512.rank)
  bcast_S_S15279x512 : S_.BroadcastsInDim S15279x512 (![] : Fin 0 → Fin S15279x512.rank)
  bcast_S512_S1x512_1 : S512.BroadcastsInDim S1x512 (![1] : Fin 1 → Fin S1x512.rank)
  bcast_S1x512_S15279x512_0_1 : S1x512.BroadcastsInDim S15279x512 (![0, 1] : Fin 2 → Fin S15279x512.rank)
  bcast_S488928x1_S488928x16_0_1 : S488928x1.BroadcastsInDim S488928x16 (![0, 1] : Fin 2 → Fin S488928x16.rank)
  bcast_S_S15279x16 : S_.BroadcastsInDim S15279x16 (![] : Fin 0 → Fin S15279x16.rank)
  bcast_S16_S1x16_1 : S16.BroadcastsInDim S1x16 (![1] : Fin 1 → Fin S1x16.rank)
  bcast_S1x16_S15279x16_0_1 : S1x16.BroadcastsInDim S15279x16 (![0, 1] : Fin 2 → Fin S15279x16.rank)
  gather_S10001x128_S15279x8x1_S15279x8x128_2_0_n_n_0_2_1128_wf : GatherDims.WF S10001x128 S15279x8x1 S15279x8x128 [2] [0] [] [0] [] 2 ![1, 128]
  dot_S15279x1024_S1024x512_S15279x512_1_0_0_1_n_n_wf : DotDims.WF S15279x1024 S1024x512 S15279x512 [1] [0] [0] [1] [] []
  gather_S15279x512_S488928x1_S488928x512_1_0_n_n_0_1_1512_wf : GatherDims.WF S15279x512 S488928x1 S488928x512 [1] [0] [] [0] [] 1 ![1, 512]
  scatter_S15279x512_S488928x1_S488928x512_1_0_0_1_wf : ScatterDims.WF S15279x512 S488928x1 S488928x512 [1] [0] [0] 1
  dot_S15279x512_S512x16_S15279x16_1_0_0_1_n_n_wf : DotDims.WF S15279x512 S512x16 S15279x16 [1] [0] [0] [1] [] []
  gather_S15279x16_S488928x1_S488928x16_1_0_n_n_0_1_116_wf : GatherDims.WF S15279x16 S488928x1 S488928x16 [1] [0] [] [0] [] 1 ![1, 16]
  scatter_S15279x16_S488928x1_S488928x16_1_0_0_1_wf : ScatterDims.WF S15279x16 S488928x1 S488928x16 [1] [0] [0] 1

variable [Facts₀]

def gather_S10001x128_S15279x8x1_S15279x8x128_2_0_n_n_0_2_1128 : GatherDims S10001x128 S15279x8x1 S15279x8x128 where
  offsetDims := [2]
  collapsedSliceDims := [0]
  operandBatchingDims := []
  startIndicesBatchingDims := []
  startIndexMap := [0]
  indexVectorDim := 2
  sliceSizes := ![1, 128]
  wf := gather_S10001x128_S15279x8x1_S15279x8x128_2_0_n_n_0_2_1128_wf
def dot_S15279x1024_S1024x512_S15279x512_1_0_0_1_n_n : DotDims S15279x1024 S1024x512 S15279x512 where
  lhsContracting := [1]
  rhsContracting := [0]
  lhsNonContracting := [0]
  rhsNonContracting := [1]
  lhsBatch := []
  rhsBatch := []
  wf := dot_S15279x1024_S1024x512_S15279x512_1_0_0_1_n_n_wf
def gather_S15279x512_S488928x1_S488928x512_1_0_n_n_0_1_1512 : GatherDims S15279x512 S488928x1 S488928x512 where
  offsetDims := [1]
  collapsedSliceDims := [0]
  operandBatchingDims := []
  startIndicesBatchingDims := []
  startIndexMap := [0]
  indexVectorDim := 1
  sliceSizes := ![1, 512]
  wf := gather_S15279x512_S488928x1_S488928x512_1_0_n_n_0_1_1512_wf
def scatter_S15279x512_S488928x1_S488928x512_1_0_0_1 : ScatterDims S15279x512 S488928x1 S488928x512 where
  updateWindowDims := [1]
  insertedWindowDims := [0]
  scatterDimsToOperandDims := [0]
  indexVectorDim := 1
  wf := scatter_S15279x512_S488928x1_S488928x512_1_0_0_1_wf
def dot_S15279x512_S512x16_S15279x16_1_0_0_1_n_n : DotDims S15279x512 S512x16 S15279x16 where
  lhsContracting := [1]
  rhsContracting := [0]
  lhsNonContracting := [0]
  rhsNonContracting := [1]
  lhsBatch := []
  rhsBatch := []
  wf := dot_S15279x512_S512x16_S15279x16_1_0_0_1_n_n_wf
def gather_S15279x16_S488928x1_S488928x16_1_0_n_n_0_1_116 : GatherDims S15279x16 S488928x1 S488928x16 where
  offsetDims := [1]
  collapsedSliceDims := [0]
  operandBatchingDims := []
  startIndicesBatchingDims := []
  startIndexMap := [0]
  indexVectorDim := 1
  sliceSizes := ![1, 16]
  wf := gather_S15279x16_S488928x1_S488928x16_1_0_n_n_0_1_116_wf
def scatter_S15279x16_S488928x1_S488928x16_1_0_0_1 : ScatterDims S15279x16 S488928x1 S488928x16 where
  updateWindowDims := [1]
  insertedWindowDims := [0]
  scatterDimsToOperandDims := [0]
  indexVectorDim := 1
  wf := scatter_S15279x16_S488928x1_S488928x16_1_0_0_1_wf

class Facts : Prop extends Facts₀ where

variable [Facts]
-- ==== Proof.Stages.lean ====
/-
  The stages of the two-layer graph convolution that run as plain array operations, each as one function of its
  inputs.  With rows / cols / vals the edge list (edge e carries weight vals e from node cols e to node rows e):
    * `features x emb`: look each of a node's 8 slot ids up in the embedding table (a negative id wraps once), clamp at
      zero from below, and lay the 8 × 128 numbers of a node out as one row of 1024;
    * `aggregate512 D rows cols vals b`: for every edge add vals e · (row cols e of D) into row rows e of a zero array,
      then add the bias b to every row;  `aggregate16` is the same on 16 columns;
    * `relu512`: the maximum with zero;
    * `padRows1024` / `padRows512`: the matrix with 81 rows appended below (15279 → 15360), each holding the
      integer 0 converted, narrowed to the matrix unit's input format (over the extended reals, no change of value).
  The kernel's program and the reference apply the first three to the same arguments; they differ only in how the two
  matrix products between them are computed.
-/
import proofs.«174048_j43645457662104_1_alg».proof.KernelIdeal
import proofs.«174048_j43645457662104_1_alg».proof.Proof.Gen.KernelIdeal
import Idealize.ShloMosaic.PureOps.Ideal

noncomputable section

namespace Cert.KernelIdeal.Stages

open Cert.KernelIdeal Cert.KernelIdeal.Gen Idealize.ShloMosaic

/-- An integer array / a float array of a shape, at the idealized instance. -/
abbrev IArr (s : Shape) := (⟨s, .i32⟩ : BufTy).Contents (Elt Ideal)
abbrev FArr (s : Shape) := (⟨s, .f32⟩ : BufTy).Contents (Elt Ideal)
abbrev HArr (s : Shape) := (⟨s, .bf16⟩ : BufTy).Contents (Elt Ideal)

/-- The node features: embedding rows gathered by slot id, clamped below at zero, 8 slots side by side. -/
def features (x : IArr S15279x8) (emb : FArr S10001x128) : FArr S15279x1024 :=
  shapeCast _ (maximumf (Host.gather gather_S10001x128_S15279x8x1_S15279x8x128_2_0_n_n_0_2_1128 emb (broadcastInDim S15279x8x1 ![0, 1] bcast_S15279x8_S15279x8x1_0_1 (select (cmpi .slt x (broadcastInDim S15279x8 ![] bcast_S_S15279x8 (constantI S_ 32 0#32))) (addi x (broadcastInDim S15279x8 ![] bcast_S_S15279x8 (constantI S_ 32 10001#32))) x))) (broadcastInDim S15279x8x128 ![] bcast_S_S15279x8x128 (constant (F := Ideal) S_ .f32 0x00000000#32))) shapeCasts_S15279x8x128_S15279x1024

/-- The weighted sum over incoming edges of the source rows of a 512-column array, plus a bias on every row. -/
def aggregate512 (D : FArr S15279x512) (rows cols : IArr S488928) (vals : FArr S488928) (b : FArr S512) : FArr S15279x512 :=
  addf (Host.scatterAdd scatter_S15279x512_S488928x1_S488928x512_1_0_0_1 (broadcastInDim S15279x512 ![] bcast_S_S15279x512 (constant (F := Ideal) S_ .f32 0x00000000#32)) (broadcastInDim S488928x1 ![0] bcast_S488928_S488928x1_0 rows) (mulf (Host.gather gather_S15279x512_S488928x1_S488928x512_1_0_n_n_0_1_1512 D (broadcastInDim S488928x1 ![0] bcast_S488928_S488928x1_0 (select (cmpi .slt cols (broadcastInDim S488928 ![] bcast_S_S488928 (constantI S_ 32 0#32))) (addi cols (broadcastInDim S488928 ![] bcast_S_S488928 (constantI S_ 32 15279#32))) cols))) (broadcastInDim S488928x512 ![0, 1] bcast_S488928x1_S488928x512_0_1 (broadcastInDim S488928x1 ![0] bcast_S488928_S488928x1_0 vals)))) (broadcastInDim S15279x512 ![0, 1] bcast_S1x512_S15279x512_0_1 (broadcastInDim S1x512 ![1] bcast_S512_S1x512_1 b))

/-- The maximum with zero, entry by entry. -/
def relu512 (D : FArr S15279x512) : FArr S15279x512 :=
  maximumf D (broadcastInDim S15279x512 ![] bcast_S_S15279x512 (constant (F := Ideal) S_ .f32 0x00000000#32))

/-- The same aggregation on a 16-column array. -/
def aggregate16 (D : FArr S15279x16) (rows cols : IArr S488928) (vals : FArr S488928) (b : FArr S16) : FArr S15279x16 :=
  addf (Host.scatterAdd scatter_S15279x16_S488928x1_S488928x16_1_0_0_1 (broadcastInDim S15279x16 ![] bcast_S_S15279x16 (constant (F := Ideal) S_ .f32 0x00000000#32)) (broadcastInDim S488928x1 ![0] bcast_S488928_S488928x1_0 rows) (mulf (Host.gather gather_S15279x16_S488928x1_S488928x16_1_0_n_n_0_1_116 D (broadcastInDim S488928x1 ![0] bcast_S488928_S488928x1_0 (select (cmpi .slt cols (broadcastInDim S488928 ![] bcast_S_S488928 (constantI S_ 32 0#32))) (addi cols (broadcastInDim S488928 ![] bcast_S_S488928 (constantI S_ 32 15279#32))) cols))) (broadcastInDim S488928x16 ![0, 1] bcast_S488928x1_S488928x16_0_1 (broadcastInDim S488928x1 ![0] bcast_S488928_S488928x1_0 vals)))) (broadcastInDim S15279x16 ![0, 1] bcast_S1x16_S15279x16_0_1 (broadcastInDim S1x16 ![1] bcast_S16_S1x16_1 b))

/-- A 1024-column matrix narrowed to the matrix unit's input format, 81 rows appended below. -/
def padRows1024 (A : FArr S15279x1024) : HArr S15360x1024 :=
  pad (s := S15279x1024) S15360x1024 ![0, 0] ![81, 0] ![0, 0] (truncf (F := Ideal) .bf16 A bitsLt_bf16_f32 : HArr S15279x1024) (sitofp (F := Ideal) .bf16 (constantI S_ 32 0#32)) pads_S15279x1024_S15360x1024_0810_000 h_S_

/-- A 512-column matrix narrowed to the matrix unit's input format, 81 rows appended below. -/
def padRows512 (A : FArr S15279x512) : HArr S15360x512 :=
  pad (s := S15279x512) S15360x512 ![0, 0] ![81, 0] ![0, 0] (truncf (F := Ideal) .bf16 A bitsLt_bf16_f32 : HArr S15279x512) (sitofp (F := Ideal) .bf16 (constantI S_ 32 0#32)) pads_S15279x512_S15360x512_0810_000 h_S_

/-- The weight matrices narrowed to the matrix unit's input format (over the extended reals, the same numbers). -/
def narrow1024x512 (W : FArr S1024x512) : HArr S1024x512 := truncf (F := Ideal) .bf16 W bitsLt_bf16_f32
def narrow512x16 (W : FArr S512x16) : HArr S512x16 := truncf (F := Ideal) .bf16 W bitsLt_bf16_f32

end Cert.KernelIdeal.Stages

end
-- ==== Proof.LibRowOps.lean ====
/-
  Three shape operations read at an index, for rank-2 vectors with a unit leading axis and for a plain matrix
  product: the cast of a length-`b` vector to a row [1, b], the broadcast of a row [1, b] down the rows of [a, b],
  and the product of an [m, k] by a [k, n] matrix accumulated into the zero splat, over the extended reals.
-/
import Idealize.ShloMosaic.Lib.Pipeline.Value
import Idealize.ShloMosaic.Lib.ValueIdx
import Idealize.ShloMosaic.PureOps.Ideal.Laws

noncomputable section

namespace Cert.KernelBody

open Idealize.ShloMosaic Idealize.ShloMosaic.ValueIdx

variable {α : Type} {a b : ℕ}

/-- Entry `(0, k)` of the row cast of a vector is the vector's entry `k`: both sit at row-major position `k`. -/
theorem shapeCast_row_apply (x : (⟨1, ![b]⟩ : Shape).Idx → α) (h : (⟨1, ![b]⟩ : Shape).ShapeCasts ⟨2, ![1, b]⟩) (k : Fin b) :
    shapeCast ⟨2, ![1, b]⟩ x h (ix2 (0 : Fin 1) k) = x (ix1 k) :=
  shapeCast_apply x h (ix2 (0 : Fin 1) k) (ix1 k) (by
    rw [Shape.rowMajor_val_one, Shape.rowMajor_val_two]
    show k.val = 0 * b + k.val
    omega)

/-- Entry `(n, k)` of a row broadcast down the rows is the row's entry `(0, k)`. -/
theorem broadcastTo_row_apply (x : (⟨2, ![1, b]⟩ : Shape).Idx → α) (h : (⟨2, ![1, b]⟩ : Shape).Broadcasts ⟨2, ![a, b]⟩)
    (n : Fin a) (k : Fin b) : broadcastTo ⟨2, ![a, b]⟩ x h (ix2 n k) = x (ix2 (0 : Fin 1) k) :=
  broadcastTo_apply x h (ix2 n k) (ix2 (0 : Fin 1) k) (fun c => by
    match c with
    | ⟨0, _⟩ => rfl
    | ⟨1, _⟩ =>
      show k.val = if b = 1 then 0 else k.val
      have := k.isLt
      split <;> omega)

/-- The product of an m×k by a k×n matrix (contracting the left operand's axis 1 with the right operand's axis 0)
    accumulated into the zero splat, read at `(r, c)`, is the sum over the contracted coordinate of the products of
    the entries. `w` is the record's well-formedness, which a program states. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    matmul (⟨[1], [0], [0], [1], [], [], w⟩ : DotDims _ _ _) prec A B
        (constant (F := Ideal) ⟨2, ![m, n]⟩ .f32 0x00000000#32) (ix2 r c)
      = ∑ i : Fin k, A (ix2 r i) * B (ix2 i c) := by
  show FloatOps.matmul _ prec A B (constant (F := Ideal) ⟨2, ![m, n]⟩ .f32 0x00000000#32) (ix2 r c) = _
  rw [Ideal.matmul_constant_zero_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

end Cert.KernelBody

end
-- ==== Proof.LibPaddedProduct.lean ====
/-
  A matrix product whose left operand carries extra rows at the bottom.  Over the extended reals the entry (r, c) of the
  product of an M×K by a K×N matrix is the sum over the contracted coordinate k of A (r, k) · B (k, c); it depends on row
  r of A only.  So when A is an m×K matrix with rows appended below it (m ≤ M, the appended rows holding any value at all)
  and the product is cut back to its first m rows, the appended rows are never read: entry (r, c) of the cut product is
  the sum over k of A (r, k) · B (k, c) for the ORIGINAL A.  No finiteness is used: only which entries are read.
  The extents are arbitrary naturals; nothing here depends on a program.
-/
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

open scoped BigOperators

namespace Cert.LibPaddedProduct

open Idealize.ShloMosaic Idealize.ShloMosaic.ValueIdx

/-- The product of an M×K by a K×N matrix over the extended reals, entry by entry: entry (r, c) is the sum over the
    contracted coordinate k of A (r, k) · B (k, c). -/
def product {M K N : ℕ} {φ₁ φ₂ : FTy} (A : FVec Ideal ⟨2, ![M, K]⟩ φ₁) (B : FVec Ideal ⟨2, ![K, N]⟩ φ₂) :
    FVec Ideal ⟨2, ![M, N]⟩ .f32 :=
  fun i => ∑ k : Fin K, A (ix2 (i 0) k) * B (ix2 k (i 1))

/-- The product read at coordinates. -/
theorem product_apply {M K N : ℕ} {φ₁ φ₂ : FTy} (A : FVec Ideal ⟨2, ![M, K]⟩ φ₁) (B : FVec Ideal ⟨2, ![K, N]⟩ φ₂)
    (r : Fin M) (c : Fin N) : product A B (ix2 r c) = ∑ k : Fin K, A (ix2 r k) * B (ix2 k c) := rfl

/-- A matrix padded only at its high ends (nothing in front, nothing between entries) reads, at a position of the
    original, the original's entry there. -/
theorem pad_high_apply {α : Type} {m n M N : ℕ} (hi : Fin 2 → ℕ) (x : (⟨2, ![m, n]⟩ : Shape).Idx → α) {u : Shape}
    (v : u.Idx → α) (h : (⟨2, ![m, n]⟩ : Shape).Pads ![0, 0] hi ![0, 0] ⟨2, ![M, N]⟩) (hu : 0 < u.numel)
    (r : Fin m) (c : Fin n) (r' : Fin M) (c' : Fin N) (hr : r'.val = r.val) (hc : c'.val = c.val) :
    pad ⟨2, ![M, N]⟩ ![0, 0] hi ![0, 0] x v h hu (ix2 r' c') = x (ix2 r c) :=
  Idealize.ShloMosaic.pad_apply_of_inside _ _ _ x v h hu _ _ (fun a => by
    match a with
    | ⟨0, _⟩ => show r'.val = 0 + r.val * (0 + 1); omega
    | ⟨1, _⟩ => show c'.val = 0 + c.val * (0 + 1); omega)

/-- The first m rows of the product of (A with rows appended below) by B, at (r, c): the sum over k of
    A (r, k) · B (k, c).  The appended rows, whatever they hold, are not read. -/
theorem cut_product_pad_apply {m M K N : ℕ} {φ₁ φ₂ : FTy} (hi : Fin 2 → ℕ)
    (A : FVec Ideal ⟨2, ![m, K]⟩ φ₁) {u : Shape} (v : u.Idx → Ideal φ₁) (B : FVec Ideal ⟨2, ![K, N]⟩ φ₂)
    (hp : (⟨2, ![m, K]⟩ : Shape).Pads ![0, 0] hi ![0, 0] ⟨2, ![M, K]⟩) (hu : 0 < u.numel)
    (hs : (⟨2, ![M, N]⟩ : Shape).Slices ![0, 0] ⟨2, ![m, N]⟩) (r : Fin m) (c : Fin N) :
    extractStridedSlice ⟨2, ![m, N]⟩ ![0, 0]
        (product (pad ⟨2, ![M, K]⟩ ![0, 0] hi ![0, 0] A v hp hu : FVec Ideal ⟨2, ![M, K]⟩ φ₁) B) hs (ix2 r c)
      = ∑ k : Fin K, A (ix2 r k) * B (ix2 k c) := by
  rw [slice2_axis0_eq, product_apply]
  refine Finset.sum_congr rfl fun k _ => ?_
  rw [pad_high_apply hi A v hp hu r k _ k (by simp) rfl]

end Cert.LibPaddedProduct

end
-- ==== Proof.RegionProducts.lean ====
/-
  What each matrix-product region leaves in its output array.  A region's grid has 15 points; point t stages rows
  1024·t … 1024·t + 1023 of the left array (every column), the whole right array, and writes back the product of the
  two staged blocks as rows 1024·t … 1024·t + 1023 of the output.  Entry (p, q) of a block product is the sum over k of
  (left block) (p, k) · (right) (k, q), and the left block's row p is the left array's row 1024·t + p; the 15 row blocks
  tile the 15360 rows.  So the output array ends as the whole product of the two arrays the region finds.
-/
import proofs.«174048_j43645457662104_1_alg».proof.Proof.Gen.KernelIdeal.Frame
import proofs.«174048_j43645457662104_1_alg».proof.Proof.LibRowOps
import proofs.«174048_j43645457662104_1_alg».proof.Proof.LibPaddedProduct
import Idealize.ShloMosaic.Lib.Pipeline.Value
import Idealize.ShloMosaic.Lib.ValueIdx
import Idealize.ShloMosaic.PureOps.Ideal.Laws

noncomputable section

open scoped BigOperators

namespace Cert.KernelIdeal.Region

open Cert.KernelIdeal Cert.KernelIdeal.Gen Idealize.ShloMosaic Idealize.ShloMosaic.TcCoe Idealize.SL.Sem
open Idealize.ShloMosaic.Pipeline (Dat)
open Idealize.ShloMosaic.ValueIdx
open Cert.LibPaddedProduct (product product_apply)

variable (V : (c : Dev nD) → (b : Ref sig .tc) → Buf (Elt Ideal) ((c : Thread nD τ).loc b))

theorem zero2 : (![0, 0] : Fin 2 → Nat) = fun _ => 0 := funext fun a => by fin_cases a <;> rfl

/-! ## The first region: [15360, 1024] × [1024, 512] -/

/-- The body's stored value at (p, q): the sum over k of the left block's (p, k) times the right block's (k, q). -/
theorem pay0_apply (x0 : FVec Ideal S1024x1024 .bf16) (x1 : FVec Ideal S1024x512 .bf16) (p : Fin 1024) (q : Fin 512) :
    k0_pay1 (F := Ideal) x0 x1 (ix2 p q) = ∑ k : Fin 1024, x0 (ix2 p k) * x1 (ix2 k q) := by
  unfold k0_pay1
  show matmul dot_S1024x1024_S1024x512_S1024x512_1_0_0_1_n_n none (shapeCast S1024x1024 x0 shapeCasts_S1024x1024_S1024x1024)
      (shapeCast S1024x512 x1 shapeCasts_S1024x512_S1024x512) (constant (F := Ideal) S1024x512 .f32 0x00000000#32) (ix2 p q) = _
  rw [shapeCast_self, shapeCast_self]
  exact Cert.KernelBody.matmul_plain_zero_apply _ none x0 x1 p q

/-- The printed index maps over the grid: the left window and the output move down one row block per point and stay
    in column block 0; the right window never moves. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 15 :=
  (by decide +kernel : ∀ t : Fin grid0.N, _)

/-- The two arrays the first region stages, as matrices. -/
abbrev lhs0 (c : Dev nD) : FVec Ideal S15360x1024 .bf16 := V c main_v10
abbrev rhs0 (c : Dev nD) : FVec Ideal S1024x512 .bf16 := V c main_v11

/-- What point t writes back is block t of the whole product. -/
theorem flushed0_eq (c : Dev nD) (t : Fin cfg0.N) :
    (dat0 V c).flushed 2 t = ((cfg0.win 2).blk t).view.read (Elt Ideal)
      (product (M := 15360) (K := 1024) (N := 512) (lhs0 V c) (rhs0 V c)) := by
  show (cfg0.win 2).cut (grid0.coords t) ((dat0 V c).after 2 t) = _
  rw [after0_2]
  unfold out0_2
  rw [View.canon_unit_zero zero2]
  simp only [View.ld_unit_zero (S := S1024x1024) zero2, View.ld_unit_zero (S := S1024x512) zero2]
  refine funext fun (j : S1024x512.Idx) => ?_
  obtain ⟨p, q, rfl⟩ : ∃ (p : Fin 1024) (q : Fin 512), j = ix2 p q := ⟨j 0, j 1, eq_ix2 j⟩
  obtain ⟨e0, e1, e2, e3, e4, e5, e6⟩ := idx_facts0 t
  show k0_pay1 (F := Ideal) (iblk0 V c 0 t) (iblk0 V c 1 t) (ix2 p q)
    = ∑ k : Fin 1024, lhs0 V c (ix2 ((((cfg0.win 2).blk t).view.emb (ix2 p q)) 0) k)
        * rhs0 V c (ix2 k ((((cfg0.win 2).blk t).view.emb (ix2 p q)) 1))
  refine (pay0_apply (iblk0 V c 0 t) (iblk0 V c 1 t) p q).trans (Finset.sum_congr rfl fun k _ => ?_)
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 1024 + 1 * p.val = win0_2.index t (0 : Fin 2) * 1024 + 1 * p.val; omega
    | ⟨1, _⟩ => show win0_0.index t (1 : Fin 2) * 1024 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 1024 + 1 * k.val = k.val; omega
    | ⟨1, _⟩ => show win0_1.index t (1 : Fin 2) * 512 + 1 * q.val = win0_2.index t (1 : Fin 2) * 512 + 1 * q.val; omega
  show lhs0 V c (((cfg0.win 0).blk t).view.emb (ix2 p k)) * rhs0 V c (((cfg0.win 1).blk t).view.emb (ix2 k q)) = _
  rw [h0, h1]
  rfl

/-- An index of the output array is in point t's block iff each coordinate is in the block's range on its axis. -/
theorem mem_blk0 (t : Fin cfg0.N) (i : S15360x512.Idx) :
    i ∈ ((cfg0.win 2).blk t).view.set ↔ ∀ a : Fin 2, win0_2.index t a * S1024x512.size a ≤ (i a).val
      ∧ (i a).val < win0_2.index t a * S1024x512.size a + S1024x512.size a := by
  show i ∈ ((View.whole main_v12).slice (win0_2.rect t)).set ↔ _
  rw [View.set_slice_whole, Rect.mem_set_unit]
  exact Iff.rfl

/-- Row r of the output lies in the block of point r / 1024: the 15 row blocks tile the 15360 rows. -/
theorem cover0 (i : S15360x512.Idx) :
    ∃ t : Fin cfg0.N, (cfg0.win 2).flush t = true ∧ i ∈ ((cfg0.win 2).blk t).view.set := by
  have hi0 : (i 0).val < 15360 := (i 0).isLt
  have hi1 : (i 1).val < 512 := (i 1).isLt
  have hlt : (i 0).val / 1024 < grid0.N := by rw [N_0]; omega
  obtain ⟨e0, e1, e2, e3, e4, e5, e6⟩ := idx_facts0 ⟨(i 0).val / 1024, hlt⟩
  have e4' : win0_2.index ⟨(i 0).val / 1024, hlt⟩ (0 : Fin 2) = (i 0).val / 1024 := e4
  refine ⟨⟨(i 0).val / 1024, hlt⟩, flush0_2 _, ?_⟩
  rw [mem_blk0]
  intro a
  match a with
  | ⟨0, _⟩ =>
    show win0_2.index ⟨(i 0).val / 1024, hlt⟩ (0 : Fin 2) * 1024 ≤ (i 0).val
      ∧ (i 0).val < win0_2.index ⟨(i 0).val / 1024, hlt⟩ (0 : Fin 2) * 1024 + 1024
    omega
  | ⟨1, _⟩ =>
    show win0_2.index ⟨(i 0).val / 1024, hlt⟩ (1 : Fin 2) * 512 ≤ (i 1).val
      ∧ (i 1).val < win0_2.index ⟨(i 0).val / 1024, hlt⟩ (1 : Fin 2) * 512 + 512
    omega

/-- THE FIRST REGION'S RESULT: its output array ends as the whole product of the two arrays it stages. -/
theorem final0 (c : Dev nD) :
    (dat0 V c).arrAt 2 cfg0.N = product (M := 15360) (K := 1024) (N := 512) (lhs0 V c) (rhs0 V c) :=
  (dat0 V c).arrAt_eq_of_cover 2 _ (fun t _ => flushed0_eq V c t) cover0

/-! ## The second region: [15360, 512] × [512, 16] -/

/-- The body's stored value at (p, q): the sum over k of the left block's (p, k) times the right block's (k, q). -/
theorem pay1_apply (x0 : FVec Ideal S1024x512 .bf16) (x1 : FVec Ideal S512x16 .bf16) (p : Fin 1024) (q : Fin 16) :
    k1_pay1 (F := Ideal) x0 x1 (ix2 p q) = ∑ k : Fin 512, x0 (ix2 p k) * x1 (ix2 k q) := by
  unfold k1_pay1
  show matmul dot_S1024x512_S512x16_S1024x16_1_0_0_1_n_n none (shapeCast S1024x512 x0 shapeCasts_S1024x512_S1024x512)
      (shapeCast S512x16 x1 shapeCasts_S512x16_S512x16) (constant (F := Ideal) S1024x16 .f32 0x00000000#32) (ix2 p q) = _
  rw [shapeCast_self, shapeCast_self]
  exact Cert.KernelBody.matmul_plain_zero_apply _ none x0 x1 p q

/-- The printed index maps over the grid, as for the first region. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 15 :=
  (by decide +kernel : ∀ t : Fin grid1.N, _)

/-- The two arrays the second region stages, as matrices. -/
abbrev lhs1 (c : Dev nD) : FVec Ideal S15360x512 .bf16 := V c main_v32
abbrev rhs1 (c : Dev nD) : FVec Ideal S512x16 .bf16 := V c main_v33

/-- What point t writes back is block t of the whole product. -/
theorem flushed1_eq (c : Dev nD) (t : Fin cfg1.N) :
    (dat1 V c).flushed 2 t = ((cfg1.win 2).blk t).view.read (Elt Ideal)
      (product (M := 15360) (K := 512) (N := 16) (lhs1 V c) (rhs1 V c)) := by
  show (cfg1.win 2).cut (grid1.coords t) ((dat1 V c).after 2 t) = _
  rw [after1_2]
  unfold out1_2
  rw [View.canon_unit_zero zero2]
  simp only [View.ld_unit_zero (S := S1024x512) zero2, View.ld_unit_zero (S := S512x16) zero2]
  refine funext fun (j : S1024x16.Idx) => ?_
  obtain ⟨p, q, rfl⟩ : ∃ (p : Fin 1024) (q : Fin 16), j = ix2 p q := ⟨j 0, j 1, eq_ix2 j⟩
  obtain ⟨e0, e1, e2, e3, e4, e5, e6⟩ := idx_facts1 t
  show k1_pay1 (F := Ideal) (iblk1 V c 0 t) (iblk1 V c 1 t) (ix2 p q)
    = ∑ k : Fin 512, lhs1 V c (ix2 ((((cfg1.win 2).blk t).view.emb (ix2 p q)) 0) k)
        * rhs1 V c (ix2 k ((((cfg1.win 2).blk t).view.emb (ix2 p q)) 1))
  refine (pay1_apply (iblk1 V c 0 t) (iblk1 V c 1 t) p q).trans (Finset.sum_congr rfl fun k _ => ?_)
  have h0 : ((cfg1.win 0).blk t).view.emb (ix2 p k) = ix2 ((((cfg1.win 2).blk t).view.emb (ix2 p q)) 0) k := by
    funext a; apply Fin.ext
    match a with
    | ⟨0, _⟩ => show win1_0.index t (0 : Fin 2) * 1024 + 1 * p.val = win1_2.index t (0 : Fin 2) * 1024 + 1 * p.val; omega
    | ⟨1, _⟩ => show win1_0.index t (1 : Fin 2) * 512 + 1 * k.val = k.val; omega
  have h1 : ((cfg1.win 1).blk t).view.emb (ix2 k q) = ix2 k ((((cfg1.win 2).blk t).view.emb (ix2 p q)) 1) := by
    funext a; apply Fin.ext
    match a with
    | ⟨0, _⟩ => show win1_1.index t (0 : Fin 2) * 512 + 1 * k.val = k.val; omega
    | ⟨1, _⟩ => show win1_1.index t (1 : Fin 2) * 16 + 1 * q.val = win1_2.index t (1 : Fin 2) * 16 + 1 * q.val; omega
  show lhs1 V c (((cfg1.win 0).blk t).view.emb (ix2 p k)) * rhs1 V c (((cfg1.win 1).blk t).view.emb (ix2 k q)) = _
  rw [h0, h1]
  rfl

/-- An index of the output array is in point t's block iff each coordinate is in the block's range on its axis. -/
theorem mem_blk1 (t : Fin cfg1.N) (i : S15360x16.Idx) :
    i ∈ ((cfg1.win 2).blk t).view.set ↔ ∀ a : Fin 2, win1_2.index t a * S1024x16.size a ≤ (i a).val
      ∧ (i a).val < win1_2.index t a * S1024x16.size a + S1024x16.size a := by
  show i ∈ ((View.whole main_v34).slice (win1_2.rect t)).set ↔ _
  rw [View.set_slice_whole, Rect.mem_set_unit]
  exact Iff.rfl

/-- Row r of the output lies in the block of point r / 1024. -/
theorem cover1 (i : S15360x16.Idx) :
    ∃ t : Fin cfg1.N, (cfg1.win 2).flush t = true ∧ i ∈ ((cfg1.win 2).blk t).view.set := by
  have hi0 : (i 0).val < 15360 := (i 0).isLt
  have hi1 : (i 1).val < 16 := (i 1).isLt
  have hlt : (i 0).val / 1024 < grid1.N := by rw [N_1]; omega
  obtain ⟨e0, e1, e2, e3, e4, e5, e6⟩ := idx_facts1 ⟨(i 0).val / 1024, hlt⟩
  have e4' : win1_2.index ⟨(i 0).val / 1024, hlt⟩ (0 : Fin 2) = (i 0).val / 1024 := e4
  refine ⟨⟨(i 0).val / 1024, hlt⟩, flush1_2 _, ?_⟩
  rw [mem_blk1]
  intro a
  match a with
  | ⟨0, _⟩ =>
    show win1_2.index ⟨(i 0).val / 1024, hlt⟩ (0 : Fin 2) * 1024 ≤ (i 0).val
      ∧ (i 0).val < win1_2.index ⟨(i 0).val / 1024, hlt⟩ (0 : Fin 2) * 1024 + 1024
    omega
  | ⟨1, _⟩ =>
    show win1_2.index ⟨(i 0).val / 1024, hlt⟩ (1 : Fin 2) * 16 ≤ (i 1).val
      ∧ (i 1).val < win1_2.index ⟨(i 0).val / 1024, hlt⟩ (1 : Fin 2) * 16 + 16
    omega

/-- THE SECOND REGION'S RESULT: its output array ends as the whole product of the two arrays it stages. -/
theorem final1 (c : Dev nD) :
    (dat1 V c).arrAt 2 cfg1.N = product (M := 15360) (K := 512) (N := 16) (lhs1 V c) (rhs1 V c) :=
  (dat1 V c).arrAt_eq_of_cover 2 _ (fun t _ => flushed1_eq V c t) cover1

end Cert.KernelIdeal.Region

end
-- ==== Proof.HostFold.lean ====
/-
  The kernel program's buffer contents, read where the value passes.  The contents at the thirteen segment boundaries
  are a fold from the launch memory; here the fold is read at the two arrays each region stages, at each region's output
  array, at the arguments the later host stages use, and at the result — each as a stage function
  (the node features, the padded matrices, the aggregations) of the launch arguments.  The regions' outputs are the
  whole products of what they stage.  Composed, the result buffer ends at
    aggregate16 (rows < 15279 of ((padded relu (aggregate512 (rows < 15279 of (padded features · W1)) …)) · W2)) … .
-/
import proofs.«174048_j43645457662104_1_alg».proof.Proof.Gen.KernelIdeal.Frame
import proofs.«174048_j43645457662104_1_alg».proof.Proof.Stages
import proofs.«174048_j43645457662104_1_alg».proof.Proof.RegionProducts
import Idealize.ShloMosaic.Lib.StableHlo.Run

noncomputable section

namespace Cert.KernelIdeal.Fold

open Cert.KernelIdeal Cert.KernelIdeal.Gen Cert.KernelIdeal.Stages
open Idealize.ShloMosaic Idealize.ShloMosaic.TcCoe Idealize.SL.Sem Idealize.ShloMosaic.StableHlo
open Cert.LibPaddedProduct (product)

variable (m : (ℓ : Loc nD τ sig) → Buf (Elt Ideal) ℓ) (ρ : Dev nD → PrngReg)

/-- The first 15279 rows of a 15360-row array. -/
def rows512 (X : FArr S15360x512) : FArr S15279x512 :=
  extractStridedSlice S15279x512 ![0, 0] X slices_S15360x512_S15279x512_0_0
def rows16 (X : FArr S15360x16) : FArr S15279x16 :=
  extractStridedSlice S15279x16 ![0, 0] X slices_S15360x16_S15279x16_0_0

/-! ## Up to the first region -/

theorem W5_arg1 (c : Dev nD) : W5 m ρ c (Proc.devRef .tc main_arg1) = m ((c : Thread nD τ).loc main_arg1) := by
  show StableHlo.after hostOps0_4 (StableHlo.after hostOps0_3 (StableHlo.after hostOps0_2 (StableHlo.after hostOps0_1 (StableHlo.after hostOps0 (W0 m ρ c))))) (Proc.devRef .tc main_arg1) = _
  after_results
theorem W5_arg2 (c : Dev nD) : W5 m ρ c (Proc.devRef .tc main_arg2) = m ((c : Thread nD τ).loc main_arg2) := by
  show StableHlo.after hostOps0_4 (StableHlo.after hostOps0_3 (StableHlo.after hostOps0_2 (StableHlo.after hostOps0_1 (StableHlo.after hostOps0 (W0 m ρ c))))) (Proc.devRef .tc main_arg2) = _
  after_results
theorem W5_arg3 (c : Dev nD) : W5 m ρ c (Proc.devRef .tc main_arg3) = m ((c : Thread nD τ).loc main_arg3) := by
  show StableHlo.after hostOps0_4 (StableHlo.after hostOps0_3 (StableHlo.after hostOps0_2 (StableHlo.after hostOps0_1 (StableHlo.after hostOps0 (W0 m ρ c))))) (Proc.devRef .tc main_arg3) = _
  after_results
theorem W5_arg6 (c : Dev nD) : W5 m ρ c (Proc.devRef .tc main_arg6) = m ((c : Thread nD τ).loc main_arg6) := by
  show StableHlo.after hostOps0_4 (StableHlo.after hostOps0_3 (StableHlo.after hostOps0_2 (StableHlo.after hostOps0_1 (StableHlo.after hostOps0 (W0 m ρ c))))) (Proc.devRef .tc main_arg6) = _
  after_results
theorem W5_arg7 (c : Dev nD) : W5 m ρ c (Proc.devRef .tc main_arg7) = m ((c : Thread nD τ).loc main_arg7) := by
  show StableHlo.after hostOps0_4 (StableHlo.after hostOps0_3 (StableHlo.after hostOps0_2 (StableHlo.after hostOps0_1 (StableHlo.after hostOps0 (W0 m ρ c))))) (Proc.devRef .tc main_arg7) = _
  after_results
theorem W5_arg8 (c : Dev nD) : W5 m ρ c (Proc.devRef .tc main_arg8) = m ((c : Thread nD τ).loc main_arg8) := by
  show StableHlo.after hostOps0_4 (StableHlo.after hostOps0_3 (StableHlo.after hostOps0_2 (StableHlo.after hostOps0_1 (StableHlo.after hostOps0 (W0 m ρ c))))) (Proc.devRef .tc main_arg8) = _
  after_results

/-- The first region's left array: the node features, narrowed, 81 rows appended. -/
theorem entry0_lhs (c : Dev nD) :
    V5 m ρ c main_v10 = padRows1024 (features (m ((c : Thread nD τ).loc main_arg0)) (m ((c : Thread nD τ).loc main_arg4))) := by
  show StableHlo.after hostOps0_4 (StableHlo.after hostOps0_3 (StableHlo.after hostOps0_2 (StableHlo.after hostOps0_1 (StableHlo.after hostOps0 (W0 m ρ c))))) (Proc.devRef .tc main_v10) = _
  after_results
  rfl

/-- The first region's right array: the first weight matrix, narrowed. -/
theorem entry0_rhs (c : Dev nD) :
    V5 m ρ c main_v11 = (narrow1024x512 (m ((c : Thread nD τ).loc main_arg5))) := by
  show StableHlo.after hostOps0_4 (StableHlo.after hostOps0_3 (StableHlo.after hostOps0_2 (StableHlo.after hostOps0_1 (StableHlo.after hostOps0 (W0 m ρ c))))) (Proc.devRef .tc main_v11) = _
  after_results
  rfl

/-- The first region's output: the whole product of what it stages. -/
theorem exit0 (c : Dev nD) :
    W6 m ρ c (Proc.devRef .tc main_v12)
      = product (M := 15360) (K := 1024) (N := 512) (φ₁ := .bf16) (φ₂ := .bf16)
          (padRows1024 (features (m ((c : Thread nD τ).loc main_arg0)) (m ((c : Thread nD τ).loc main_arg4))))
          (narrow1024x512 (m ((c : Thread nD τ).loc main_arg5))) := by
  refine (W6_arr m ρ c 2).trans ?_
  rw [Region.final0 (V5 m ρ) c]
  show product (M := 15360) (K := 1024) (N := 512) (φ₁ := .bf16) (φ₂ := .bf16) (V5 m ρ c main_v10) (V5 m ρ c main_v11) = _
  rw [entry0_lhs, entry0_rhs]

/-! ## Between the regions -/

theorem W6_arg1 (c : Dev nD) : W6 m ρ c (Proc.devRef .tc main_arg1) = m ((c : Thread nD τ).loc main_arg1) :=
  (W6_of_ne m ρ c main_arg1 (by decide)).trans (W5_arg1 m ρ c)
theorem W6_arg2 (c : Dev nD) : W6 m ρ c (Proc.devRef .tc main_arg2) = m ((c : Thread nD τ).loc main_arg2) :=
  (W6_of_ne m ρ c main_arg2 (by decide)).trans (W5_arg2 m ρ c)
theorem W6_arg3 (c : Dev nD) : W6 m ρ c (Proc.devRef .tc main_arg3) = m ((c : Thread nD τ).loc main_arg3) :=
  (W6_of_ne m ρ c main_arg3 (by decide)).trans (W5_arg3 m ρ c)
theorem W6_arg6 (c : Dev nD) : W6 m ρ c (Proc.devRef .tc main_arg6) = m ((c : Thread nD τ).loc main_arg6) :=
  (W6_of_ne m ρ c main_arg6 (by decide)).trans (W5_arg6 m ρ c)
theorem W6_arg7 (c : Dev nD) : W6 m ρ c (Proc.devRef .tc main_arg7) = m ((c : Thread nD τ).loc main_arg7) :=
  (W6_of_ne m ρ c main_arg7 (by decide)).trans (W5_arg7 m ρ c)
theorem W6_arg8 (c : Dev nD) : W6 m ρ c (Proc.devRef .tc main_arg8) = m ((c : Thread nD τ).loc main_arg8) :=
  (W6_of_ne m ρ c main_arg8 (by decide)).trans (W5_arg8 m ρ c)
theorem W11_arg1 (c : Dev nD) : W11 m ρ c (Proc.devRef .tc main_arg1) = m ((c : Thread nD τ).loc main_arg1) := by
  show StableHlo.after hostOps1_4 (StableHlo.after hostOps1_3 (StableHlo.after hostOps1_2 (StableHlo.after hostOps1_1 (StableHlo.after hostOps1 (W6 m ρ c))))) (Proc.devRef .tc main_arg1) = _
  after_results
  exact W6_arg1 m ρ c
theorem W11_arg2 (c : Dev nD) : W11 m ρ c (Proc.devRef .tc main_arg2) = m ((c : Thread nD τ).loc main_arg2) := by
  show StableHlo.after hostOps1_4 (StableHlo.after hostOps1_3 (StableHlo.after hostOps1_2 (StableHlo.after hostOps1_1 (StableHlo.after hostOps1 (W6 m ρ c))))) (Proc.devRef .tc main_arg2) = _
  after_results
  exact W6_arg2 m ρ c
theorem W11_arg3 (c : Dev nD) : W11 m ρ c (Proc.devRef .tc main_arg3) = m ((c : Thread nD τ).loc main_arg3) := by
  show StableHlo.after hostOps1_4 (StableHlo.after hostOps1_3 (StableHlo.after hostOps1_2 (StableHlo.after hostOps1_1 (StableHlo.after hostOps1 (W6 m ρ c))))) (Proc.devRef .tc main_arg3) = _
  after_results
  exact W6_arg3 m ρ c
theorem W11_arg8 (c : Dev nD) : W11 m ρ c (Proc.devRef .tc main_arg8) = m ((c : Thread nD τ).loc main_arg8) := by
  show StableHlo.after hostOps1_4 (StableHlo.after hostOps1_3 (StableHlo.after hostOps1_2 (StableHlo.after hostOps1_1 (StableHlo.after hostOps1 (W6 m ρ c))))) (Proc.devRef .tc main_arg8) = _
  after_results
  exact W6_arg8 m ρ c

set_option maxHeartbeats 2000000 in
/-- The second region's left array: the hidden layer — aggregate, add the bias, clamp below at zero — narrowed,
    81 rows appended. -/
theorem entry1_lhs (c : Dev nD) :
    V11 m ρ c main_v32 = padRows512 (relu512 (aggregate512 (rows512 (W6 m ρ c (Proc.devRef .tc main_v12)))
      (m ((c : Thread nD τ).loc main_arg1)) (m ((c : Thread nD τ).loc main_arg2)) (m ((c : Thread nD τ).loc main_arg3))
      (m ((c : Thread nD τ).loc main_arg6)))) := by
  show StableHlo.after hostOps1_4 (StableHlo.after hostOps1_3 (StableHlo.after hostOps1_2 (StableHlo.after hostOps1_1 (StableHlo.after hostOps1 (W6 m ρ c))))) (Proc.devRef .tc main_v32) = _
  after_results_simp
  rw [W6_arg1, W6_arg2, W6_arg3, W6_arg6]
  rfl

/-- The second region's right array: the second weight matrix, narrowed. -/
theorem entry1_rhs (c : Dev nD) :
    V11 m ρ c main_v33 = (narrow512x16 (m ((c : Thread nD τ).loc main_arg7))) := by
  show StableHlo.after hostOps1_4 (StableHlo.after hostOps1_3 (StableHlo.after hostOps1_2 (StableHlo.after hostOps1_1 (StableHlo.after hostOps1 (W6 m ρ c))))) (Proc.devRef .tc main_v33) = _
  after_results
  rw [W6_arg7]
  rfl

/-- The second region's output: the whole product of what it stages. -/
theorem exit1 (c : Dev nD) :
    W12 m ρ c (Proc.devRef .tc main_v34)
      = product (M := 15360) (K := 512) (N := 16) (φ₁ := .bf16) (φ₂ := .bf16)
          (padRows512 (relu512 (aggregate512 (rows512 (W6 m ρ c (Proc.devRef .tc main_v12)))
            (m ((c : Thread nD τ).loc main_arg1)) (m ((c : Thread nD τ).loc main_arg2)) (m ((c : Thread nD τ).loc main_arg3))
            (m ((c : Thread nD τ).loc main_arg6)))))
          (narrow512x16 (m ((c : Thread nD τ).loc main_arg7))) := by
  refine (W12_arr m ρ c 2).trans ?_
  rw [Region.final1 (V11 m ρ) c]
  show product (M := 15360) (K := 512) (N := 16) (φ₁ := .bf16) (φ₂ := .bf16) (V11 m ρ c main_v32) (V11 m ρ c main_v33) = _
  rw [entry1_lhs, entry1_rhs]

/-! ## After the second region -/

theorem W12_arg1 (c : Dev nD) : W12 m ρ c (Proc.devRef .tc main_arg1) = m ((c : Thread nD τ).loc main_arg1) :=
  (W12_of_ne m ρ c main_arg1 (by decide)).trans (W11_arg1 m ρ c)
theorem W12_arg2 (c : Dev nD) : W12 m ρ c (Proc.devRef .tc main_arg2) = m ((c : Thread nD τ).loc main_arg2) :=
  (W12_of_ne m ρ c main_arg2 (by decide)).trans (W11_arg2 m ρ c)
theorem W12_arg3 (c : Dev nD) : W12 m ρ c (Proc.devRef .tc main_arg3) = m ((c : Thread nD τ).loc main_arg3) :=
  (W12_of_ne m ρ c main_arg3 (by decide)).trans (W11_arg3 m ρ c)
theorem W12_arg8 (c : Dev nD) : W12 m ρ c (Proc.devRef .tc main_arg8) = m ((c : Thread nD τ).loc main_arg8) :=
  (W12_of_ne m ρ c main_arg8 (by decide)).trans (W11_arg8 m ρ c)

set_option maxHeartbeats 2000000 in
/-- The result buffer: the output layer's aggregation of the first 15279 rows of the second product. -/
theorem result (c : Dev nD) :
    W13 m ρ c (Proc.devRef .tc main_v51) = aggregate16 (rows16 (W12 m ρ c (Proc.devRef .tc main_v34)))
      (m ((c : Thread nD τ).loc main_arg1)) (m ((c : Thread nD τ).loc main_arg2)) (m ((c : Thread nD τ).loc main_arg3))
      (m ((c : Thread nD τ).loc main_arg8)) := by
  show StableHlo.after hostOps2 (W12 m ρ c) (Proc.devRef .tc main_v51) = _
  after_results_simp
  rw [W12_arg1, W12_arg2, W12_arg3, W12_arg8]
  rfl

end Cert.KernelIdeal.Fold

end
-- ==== Proof.KernelRun.lean ====
/-
  The idealized kernel's run with its result named.  The program is thirteen segments: host operations, the first
  matrix-product region, host operations, the second region, host operations.  The buffer contents at each segment
  boundary are a fold from the launch memory (the generated `W0` … `W13`); at the end every unscoped buffer holds
  `W13`'s contents.  The frame keeps of that only "the arguments are unchanged"; here the same run also keeps what the
  result buffer holds, `W13` at the result, so that the value can be read off the fold.
-/
import proofs.«174048_j43645457662104_1_alg».proof.Proof.Gen.KernelIdeal.Frame

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and the nine arguments end as launched. -/
theorem run : θ_run defs (onTc (τ := τ) (main (F := F))) ⟨m, fun _ => 0, ρ⟩ (fun r => ∀ c : Dev nD,
      r.2.mem ((c.tc : Thread nD τ).loc main_v51) = W13 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v51 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c)⟩)

end Cert.KernelIdeal.Named

end
-- ==== Proof.LibHostDot.lean ====
/-
  A plain matrix product on the host, read at an index.  `jnp`'s `A @ B` of an m×k by a k×n matrix lowers to a
  `dot_general` contracting the left operand's axis 1 with the right operand's axis 0; over the extended reals its entry
  (r, c) is the sum over the contracted coordinate i of `A (r, i) · B (i, c)`, whatever the precision and schedule.
  The extents are arbitrary naturals; nothing here depends on a program.  The second form takes the record by name
  together with the equation that spells its fields, for a record a program declares as a definition.
-/
import Idealize.ShloMosaic.Lib.Pipeline.Value
import Idealize.ShloMosaic.Lib.ValueIdx
import Idealize.ShloMosaic.PureOps.Ideal.Laws

noncomputable section

open scoped BigOperators

namespace Cert.LibHostDot

open Idealize.ShloMosaic Idealize.ShloMosaic.ValueIdx

/-- The host's product of an m×k by a k×n matrix, read at (r, c): the sum over the contracted coordinate. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    Host.dotGeneral (⟨[1], [0], [0], [1], [], [], w⟩ : DotDims _ _ _) prec A B (ix2 r c)
      = ∑ i : Fin k, A (ix2 r i) * B (ix2 i c) := by
  simp only [Host.dotGeneral]
  rw [Ideal.dotGeneral_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

/-- The same for a record given by name, with the equation that spells it. -/
theorem dotGeneral_plain_apply' {m k n : ℕ} {φ₁ φ₂ : FTy}
    (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] [])
    (hd : d = ⟨[1], [0], [0], [1], [], [], w⟩)
    (prec : Option ContractPrecision) (A : FVec Ideal ⟨2, ![m, k]⟩ φ₁) (B : FVec Ideal ⟨2, ![k, n]⟩ φ₂)
    (r : Fin m) (c : Fin n) :
    Host.dotGeneral d prec A B (ix2 r c) = ∑ i : Fin k, A (ix2 r i) * B (ix2 i c) := by
  subst hd
  exact dotGeneral_plain_apply w prec A B r c

end Cert.LibHostDot

end
-- ==== Proof.Bridge.lean ====
/-
  The two programs compute one function.  Both take the node features, multiply by the first weight matrix, aggregate
  over the edges, add a bias, clamp below at zero, multiply by the second weight matrix, aggregate again and add the
  second bias — the same array operations on the same arguments, except for the two matrix products: the reference
  takes each product whole, while the kernel narrows the operands to the matrix unit's input format (no change over the
  extended reals), appends 81 rows to the left operand, multiplies in 15 blocks of 1024 rows, and keeps the first 15279
  rows.  Entry (r, c) of either is the sum over k of A (r, k) · W (k, c): a row of the product reads only that row of
  the left operand, so the appended rows are never read.  Sums of extended reals are taken in the same order on both
  sides and nothing is cancelled or distributed, so no finiteness of the inputs is used.
-/
import proofs.«174048_j43645457662104_1_alg».proof.Defs
import proofs.«174048_j43645457662104_1_alg».proof.Proof.Gen.ReferenceIdeal.Run
import proofs.«174048_j43645457662104_1_alg».proof.Proof.Gen.Pre_finite_inputs
import proofs.«174048_j43645457662104_1_alg».proof.Proof.HostFold
import proofs.«174048_j43645457662104_1_alg».proof.Proof.KernelRun
import proofs.«174048_j43645457662104_1_alg».proof.Proof.LibHostDot
import proofs.«174048_j43645457662104_1_alg».proof.Proof.LibPaddedProduct
import Idealize.ShloMosaic.Lib.ValueIdx

noncomputable section

open scoped BigOperators

namespace Cert.Bridge

open Cert.KernelIdeal Cert.KernelIdeal.Gen Cert.KernelIdeal.Stages Cert.KernelIdeal.Fold
open Idealize.ShloMosaic Idealize.ShloMosaic.TcCoe Idealize.ShloMosaic.ValueIdx Idealize.SL.Sem
open Cert.LibPaddedProduct (product cut_product_pad_apply)

/-- The first product: the first 15279 rows of (padded A) · W, taken in row blocks, are the reference's whole A · W. -/
theorem product_features (A : FArr S15279x1024) (W : FArr S1024x512) :
    rows512 (product (M := 15360) (K := 1024) (N := 512) (φ₁ := .bf16) (φ₂ := .bf16) (padRows1024 A)
        (narrow1024x512 W))
      = Host.dotGeneral (F := Ideal) (φ₁ := .f32) (φ₂ := .f32) Cert.ReferenceIdeal.dot_S15279x1024_S1024x512_S15279x512_1_0_0_1_n_n none A W := by
  funext i
  obtain ⟨r, c, rfl⟩ : ∃ (r : Fin 15279) (c : Fin 512), i = ix2 r c := ⟨i 0, i 1, eq_ix2 i⟩
  unfold rows512 padRows1024 narrow1024x512
  rw [cut_product_pad_apply]
  exact (Cert.LibHostDot.dotGeneral_plain_apply' Cert.ReferenceIdeal.dot_S15279x1024_S1024x512_S15279x512_1_0_0_1_n_n
    Cert.ReferenceIdeal.dot_S15279x1024_S1024x512_S15279x512_1_0_0_1_n_n.wf rfl none A W r c).symm

/-- The second product, likewise. -/
theorem product_hidden (A : FArr S15279x512) (W : FArr S512x16) :
    rows16 (product (M := 15360) (K := 512) (N := 16) (φ₁ := .bf16) (φ₂ := .bf16) (padRows512 A)
        (narrow512x16 W))
      = Host.dotGeneral (F := Ideal) (φ₁ := .f32) (φ₂ := .f32) Cert.ReferenceIdeal.dot_S15279x512_S512x16_S15279x16_1_0_0_1_n_n none A W := by
  funext i
  obtain ⟨r, c, rfl⟩ : ∃ (r : Fin 15279) (c : Fin 16), i = ix2 r c := ⟨i 0, i 1, eq_ix2 i⟩
  unfold rows16 padRows512 narrow512x16
  rw [cut_product_pad_apply]
  exact (Cert.LibHostDot.dotGeneral_plain_apply' Cert.ReferenceIdeal.dot_S15279x512_S512x16_S15279x16_1_0_0_1_n_n
    Cert.ReferenceIdeal.dot_S15279x512_S512x16_S15279x16_1_0_0_1_n_n.wf rfl none A W r c).symm

variable (m : (ℓ : Loc nD τ sig) → Buf (Elt Ideal) ℓ) (ρ : Dev nD → PrngReg)

/-- What the kernel program's result buffer ends at, with both products taken whole. -/
theorem kernel_value (c : Dev nD) :
    W13 m ρ c (Proc.devRef .tc main_v51)
      = aggregate16 (Host.dotGeneral (F := Ideal) (φ₁ := .f32) (φ₂ := .f32) Cert.ReferenceIdeal.dot_S15279x512_S512x16_S15279x16_1_0_0_1_n_n none
          (relu512 (aggregate512 (Host.dotGeneral (F := Ideal) (φ₁ := .f32) (φ₂ := .f32) Cert.ReferenceIdeal.dot_S15279x1024_S1024x512_S15279x512_1_0_0_1_n_n none
              (features (m ((c : Thread nD τ).loc main_arg0)) (m ((c : Thread nD τ).loc main_arg4)))
              (m ((c : Thread nD τ).loc main_arg5)))
            (m ((c : Thread nD τ).loc main_arg1)) (m ((c : Thread nD τ).loc main_arg2)) (m ((c : Thread nD τ).loc main_arg3))
            (m ((c : Thread nD τ).loc main_arg6))))
          (m ((c : Thread nD τ).loc main_arg7)))
        (m ((c : Thread nD τ).loc main_arg1)) (m ((c : Thread nD τ).loc main_arg2)) (m ((c : Thread nD τ).loc main_arg3))
        (m ((c : Thread nD τ).loc main_arg8)) := by
  rw [Fold.result, Fold.exit1, Fold.exit0, product_features, product_hidden]

end Cert.Bridge

namespace Cert.Proof.Claims

open Idealize.ShloMosaic Idealize.ShloMosaic.TcCoe Idealize.SL.Sem

/-- From memories agreeing on the nine arguments both idealized programs run to the end with the same result array:
    the kernel's by the run that names its result and `kernel_value`, the reference's by its run read back; the
    two terms are then the same operations on the same arguments. -/
theorem algebraic : Cert.algebraic_KernelIdeal_ReferenceIdeal := by
  intro m ρ m' ρ' _ hagree
  refine ⟨fun c => Cert.KernelIdeal.Gen.W13 m ρ c (Proc.devRef .tc Cert.KernelIdeal.main_v51),
    Cert.KernelIdeal.Named.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  show _ = Cert.KernelIdeal.Gen.W13 m ρ c (Proc.devRef .tc Cert.KernelIdeal.main_v51)
  rw [Cert.Bridge.kernel_value m ρ c, a0, a1, a2, a3, a4, a5, a6, a7, a8]
  rfl

end Cert.Proof.Claims

end
-- ==== Proof.lean ====
/-
  A two-layer graph convolution on 15279 nodes: a Pallas kernel program against its jnp reference, equal over the
  extended reals.

  Both programs compute, from slot ids x [15279, 8], an edge list (rows, cols, vals) of 488928 weighted edges, an
  embedding table [10001, 128], weights W1 [1024, 512], W2 [512, 16] and biases b1, b2:
      h0  = max (emb[x], 0) laid out as [15279, 1024]
      h1  = max (A · (h0 · W1) + b1, 0)            (A · D: for each edge add vals · D[cols] into row rows)
      out = A · (h1 · W2) + b2.
  The reference takes h0 · W1 and h1 · W2 as whole matrix products.  The kernel program narrows each product's
  operands to the matrix unit's input format (no change of value over the extended reals), appends 81 zero rows to the
  left operand (15279 → 15360), multiplies in a grid of 15 row blocks of 1024 rows — each block product accumulated into
  zero —, and keeps the first 15279 rows of the result.  Entry (r, c) of a product is the sum over k of
  (left) (r, k) · (right) (k, c) and reads only row r of the left operand; the 15 row blocks tile the 15360 rows; the
  appended rows are never read.  So each of the kernel's products equals the reference's, entry by entry, and every other
  operation is the same on both sides.  Nothing is distributed or cancelled: the finiteness of the inputs is not used.

  Modules: the product law for a left operand with appended rows (LibPaddedProduct), the two matrix-product readings
  (LibRowOps, LibHostDot), each region's output array as a whole product (RegionProducts), the program's run with its
  result named (KernelRun), the host stages as functions (Stages) and the program's buffer contents read through them
  (HostFold), and the comparison with the reference's run (Bridge).  The three frames are the generated ones; the
  idealization rewrote nothing, so `preserves` is `True`.
-/
import proofs.«174048_j43645457662104_1_alg».proof.Defs
import proofs.«174048_j43645457662104_1_alg».proof.Proof.Gen.Kernel
import proofs.«174048_j43645457662104_1_alg».proof.Proof.Gen.Kernel.Skeleton
import proofs.«174048_j43645457662104_1_alg».proof.Proof.Gen.Kernel.Launch
import proofs.«174048_j43645457662104_1_alg».proof.Proof.Gen.Kernel.Points
import proofs.«174048_j43645457662104_1_alg».proof.Proof.Gen.Kernel.Frame
import proofs.«174048_j43645457662104_1_alg».proof.Proof.Gen.KernelIdeal
import proofs.«174048_j43645457662104_1_alg».proof.Proof.Gen.KernelIdeal.Skeleton
import proofs.«174048_j43645457662104_1_alg».proof.Proof.Gen.KernelIdeal.Launch
import proofs.«174048_j43645457662104_1_alg».proof.Proof.Gen.KernelIdeal.Points
import proofs.«174048_j43645457662104_1_alg».proof.Proof.Gen.KernelIdeal.Frame
import proofs.«174048_j43645457662104_1_alg».proof.Proof.Gen.ReferenceIdeal
import proofs.«174048_j43645457662104_1_alg».proof.Proof.Gen.ReferenceIdeal.Run
import proofs.«174048_j43645457662104_1_alg».proof.Proof.Gen.Pre_finite_inputs
import proofs.«174048_j43645457662104_1_alg».proof.Proof.Bridge
import Idealize.ShloMosaic.Adequacy
import Idealize.ShloMosaic.Init

noncomputable section

namespace Cert.Proof

open Idealize.ShloMosaic Idealize.SL.Sem

/-- The kernel program as printed runs to the end, its arguments unchanged. -/
theorem frame_kernel : Cert.frame_Kernel :=
  fun m ρ _ => Cert.Kernel.Gen.frame m ρ

/-- So does its idealization. -/
theorem frame_kernel_ideal : Cert.frame_KernelIdeal :=
  fun m ρ _ => Cert.KernelIdeal.Gen.frame m ρ

/-- The reference's frame is its run with the result dropped. -/
theorem frame_reference_ideal : Cert.frame_ReferenceIdeal :=
  fun m ρ _ => (θ_run Cert.ReferenceIdeal.defs _ _).mono (fun _ h c => (h c).2)
    (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, Cert.Proof.Claims.algebraic⟩

end Cert.Proof

end
